-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S40x64 : Shape := ⟨2, ![40, 64]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S40x64 : S_.BroadcastsInDim S40x64 (![] : Fin 0 → Fin S40x64.rank)
  reducesTo_S40x64_S_d0_1 : S40x64.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40x64 .f32) (main_arg6 : FVec F S40x64 .f32) (main_arg7 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S40x64 .f32 := Host.absf main_arg5
  let main_cst_6 : FVec F S_ .f32 := constant S_ .f32 0x7F800000#32
  let main_v20 : FVec F S40x64 .f32 := broadcastInDim S40x64 ![] bcast_S_S40x64 main_cst_6
  let main_v21 : IVec S40x64 1 := cmpf .olt main_v19 main_v20
  let main_c_7 : IVec S_ 1 := constantI S_ 1 1#1
  let main_v22 : IVec S_ 1 := (fun x v => Host.reduce IntOp.andi x v reducesTo_S40x64_S_d0_1 h_S_) main_v21 main_c_7
  let main_v23 : IVec S_ 1 := andi main_v18 main_v22
  let main_v24 : FVec F S40x64 .f32 := Host.absf main_arg6
  let main_cst_8 : FVec F S_ .f32 := constant S_ .f32 0x7F800000#32
  let main_v25 : FVec F S40x64 .f32 := broadcastInDim S40x64 ![] bcast_S_S40x64 main_cst_8
  let main_v26 : IVec S40x64 1 := cmpf .olt main_v24 main_v25
  let main_c_9 : IVec S_ 1 := constantI S_ 1 1#1
  let main_v27 : IVec S_ 1 := (fun x v => Host.reduce IntOp.andi x v reducesTo_S40x64_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x64 .f32) (main_arg1 : IVec S2x1200000 32) (main_arg2 : FVec F S64x64 .f32) (main_arg3 : FVec F S64x64 .f32) (main_arg4 : FVec F S64 .f32) (main_arg5 : FVec F S40x64 .f32) (main_arg6 : FVec F S40x64 .f32) (main_arg7 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S40x64 : Shape := ⟨2, ![40, 64]⟩
abbrev S40 : Shape := ⟨1, ![40]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S100000x1 : Shape := ⟨2, ![100000, 1]⟩
abbrev S1200000x64 : Shape := ⟨2, ![1200000, 64]⟩
abbrev S1x64 : Shape := ⟨2, ![1, 64]⟩
abbrev S4000x64 : Shape := ⟨2, ![4000, 64]⟩
abbrev S4000x1 : Shape := ⟨2, ![4000, 1]⟩
abbrev S64x40 : Shape := ⟨2, ![64, 40]⟩
abbrev S1x40 : Shape := ⟨2, ![1, 40]⟩
abbrev S100000x40 : Shape := ⟨2, ![100000, 40]⟩
abbrev S4000x40 : Shape := ⟨2, ![4000, 40]⟩

abbrev nBuf : Space → Nat
  | .hbm => 59
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S40x64, .f32⟩
  | .hbm, ⟨6, _⟩ => ⟨S40x64, .f32⟩
  | .hbm, ⟨7, _⟩ => ⟨S40, .f32⟩
  | .hbm, ⟨8, _⟩ => ⟨S1x1200000, .i32⟩
  | .hbm, ⟨9, _⟩ => ⟨S1200000, .i32⟩
  | .hbm, ⟨10, _⟩ => ⟨S1x1200000, .i32⟩
  | .hbm, ⟨11, _⟩ => ⟨S1200000, .i32⟩
  | .hbm, ⟨12, _⟩ => ⟨S_, .f32⟩
  | .hbm, ⟨13, _⟩ => ⟨S1200000x1, .f32⟩
  | .hbm, ⟨14, _⟩ => ⟨S_, .f32⟩
  | .hbm, ⟨15, _⟩ => ⟨S100000x1, .f32⟩
  | .hbm, ⟨16, _⟩ => ⟨S1200000x1, .i32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S_, .f32⟩
  | .hbm, ⟨22, _⟩ => ⟨S100000x1, .f32⟩
  | .hbm, ⟨23, _⟩ => ⟨S100000x1, .f32⟩
  | .hbm, ⟨24, _⟩ => ⟨S_, .i32⟩
  | .hbm, ⟨25, _⟩ => ⟨S1200000, .i32⟩
  | .hbm, ⟨26, _⟩ => ⟨S1200000, .i1⟩
  | .hbm, ⟨27, _⟩ => ⟨S_, .i32⟩
  | .hbm, ⟨28, _⟩ => ⟨S1200000, .i32⟩
  | .hbm, ⟨29, _⟩ => ⟨S1200000, .i32⟩
  | .hbm, ⟨30, _⟩ => ⟨S1200000, .i32⟩
  | .hbm, ⟨31, _⟩ => ⟨S1200000x1, .i32⟩
  | .hbm, ⟨32, _⟩ => ⟨S1200000x64, .f32⟩
  | .hbm, ⟨33, _⟩ => ⟨S_, .f32⟩
  | .hbm, ⟨34, _⟩ => ⟨S100000x64, .f32⟩
  | .hbm, ⟨35, _⟩ => ⟨S1200000x1, .i32⟩
  | .hbm, ⟨36, _⟩ => ⟨S100000x64, .f32⟩
  | .hbm, ⟨37, _⟩ => ⟨S64x64, .f32⟩
  | .hbm, ⟨38, _⟩ => ⟨S64x64, .f32⟩
  | .hbm, ⟨39, _⟩ => ⟨S1x64, .f32⟩
  | .hbm, ⟨40, _⟩ => ⟨S100000x64, .bf16⟩
  | .hbm, ⟨41, _⟩ => ⟨S_, .i32⟩
  | .hbm, ⟨42, _⟩ => ⟨S1200000, .i32⟩
  | .hbm, ⟨43, _⟩ => ⟨S1200000, .i1⟩
  | .hbm, ⟨44, _⟩ => ⟨S_, .i32⟩
  | .hbm, ⟨45, _⟩ => ⟨S1200000, .i32⟩
  | .hbm, ⟨46, _⟩ => ⟨S1200000, .i32⟩
  | .hbm, ⟨47, _⟩ => ⟨S1200000, .i32⟩
  | .hbm, ⟨48, _⟩ => ⟨S1200000x1, .i32⟩
  | .hbm, ⟨49, _⟩ => ⟨S1200000x64, .bf16⟩
  | .hbm, ⟨50, _⟩ => ⟨S1200000x64, .f32⟩
  | .hbm, ⟨51, _⟩ => ⟨S_, .f32⟩
  | .hbm, ⟨52, _⟩ => ⟨S100000x64, .f32⟩
  | .hbm, ⟨53, _⟩ => ⟨S1200000x1, .i32⟩
  | .hbm, ⟨54, _⟩ => ⟨S100000x64, .f32⟩
  | .hbm, ⟨55, _⟩ => ⟨S64x40, .f32⟩
  | .hbm, ⟨56, _⟩ => ⟨S64x40, .f32⟩
  | .hbm, ⟨57, _⟩ => ⟨S1x40, .f32⟩
  | .hbm, ⟨58, _⟩ => ⟨S100000x40, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x1, .f32⟩
  | .local _ .vmem, ⟨5, _⟩ => ⟨S4000x1, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S4000x64, .bf16⟩
  | .local _ .vmem, ⟨10, _⟩ => ⟨S4000x64, .bf16⟩
  | .local _ .vmem, ⟨11, _⟩ => ⟨S4000x64, .f32⟩
  | .local _ .vmem, ⟨12, _⟩ => ⟨S4000x64, .f32⟩
  | .local _ .vmem, ⟨13, _⟩ => ⟨S4000x64, .bf16⟩
  | .local _ .vmem, ⟨14, _⟩ => ⟨S4000x64, .bf16⟩
  | .local _ .vmem, ⟨15, _⟩ => ⟨S4000x1, .f32⟩
  | .local _ .vmem, ⟨16, _⟩ => ⟨S4000x1, .f32⟩
  | .local _ .vmem, ⟨17, _⟩ => ⟨S64x40, .f32⟩
  | .local _ .vmem, ⟨18, _⟩ => ⟨S64x40, .f32⟩
  | .local _ .vmem, ⟨19, _⟩ => ⟨S1x40, .f32⟩
  | .local _ .vmem, ⟨20, _⟩ => ⟨S4000x40, .f32⟩
  | .local _ .vmem, ⟨21, _⟩ => ⟨S4000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x40 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x40 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000x1 : S_.BroadcastsInDim S1200000x1 (![] : Fin 0 → Fin S1200000x1.rank)
  bcast_S_S100000x1 : S_.BroadcastsInDim S100000x1 (![] : Fin 0 → Fin S100000x1.rank)
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S_S100000x64 : S_.BroadcastsInDim S100000x64 (![] : Fin 0 → Fin S100000x64.rank)
  transposes_S64x64_S64x64_1_0 : S64x64.Transposes [1, 0] S64x64
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  packedbf16_S4000x64_S4000x64_0_0 : (Rect.unit (s := S4000x64) ![0, 0] S4000x64.size inb_S4000x64_S4000x64_0_0).PackedRows (EltTy.packing .bf16)
  transposes_S40x64_S64x40_1_0 : S40x64.Transposes [1, 0] S64x40
  shapeCasts_S40_S1x40 : S40.ShapeCasts S1x40
  inb_S64x40_S64x40_0_0 : ∀ a, (![0, 0] : Fin 2 → Nat) a + S64x40.size a ≤ S64x40.size a
  h_S64x40 : 0 < S64x40.numel
  shapeCasts_S64x40_S64x40 : S64x40.ShapeCasts S64x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  inb_S4000x40_S4000x40_0_0 : ∀ a, (![0, 0] : Fin 2 → Nat) a + S4000x40.size a ≤ S4000x40.size a
  h_S4000x40 : 0 < S4000x40.numel
  scatter_S100000x1_S1200000x1_S1200000x1_1_0_0_1_wf : ScatterDims.WF S100000x1 S1200000x1 S1200000x1 [1] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S4000x64_S64x64_S4000x64_1_0_0_1_n_n_wf : DotDims.WF S4000x64 S64x64 S4000x64 [1] [0] [0] [1] [] []
  dot_S4000x64_S64x40_S4000x40_1_0_0_1_n_n_wf : DotDims.WF S4000x64 S64x40 S4000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x64.size a ≤ S100000x64.size a
  hwx0_6 : ∀ i : grid0.Coords, EltTy.bits .bf16 = 32 ∨ (Rect.block (s := S100000x64) S4000x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .bf16 = 32 ∨ (Rect.block (s := S100000x64) S4000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x40.size a ≤ S64x40.size a
  hwx1_3 : ∀ i : grid1.Coords, EltTy.bits .f32 = 32 ∨ (Rect.block (s := S64x40) S64x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x40.size a ≤ S64x40.size a
  hwx1_4 : ∀ i : grid1.Coords, EltTy.bits .f32 = 32 ∨ (Rect.block (s := S64x40) S64x40.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x40.size a ≤ S1x40.size a
  hwx1_5 : ∀ i : grid1.Coords, EltTy.bits .f32 = 32 ∨ (Rect.block (s := S1x40) S1x40.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x40.size a ≤ S100000x40.size a
  hwx1_6 : ∀ i : grid1.Coords, EltTy.bits .f32 = 32 ∨ (Rect.block (s := S100000x40) S4000x40.size (cc1_transform_6 i) (hinb1_6 i)).WholeWords (EltTy.packing .f32)

variable [Facts₀]

def scatter_S100000x1_S1200000x1_S1200000x1_1_0_0_1 : ScatterDims S100000x1 S1200000x1 S1200000x1 where
  updateWindowDims := [1]
  insertedWindowDims := [0]
  scatterDimsToOperandDims := [0]
  indexVectorDim := 1
  wf := scatter_S100000x1_S1200000x1_S1200000x1_1_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x40_S4000x40_1_0_0_1_n_n : DotDims S4000x64 S64x40 S4000x40 where
  lhsContracting := [1]
  rhsContracting := [0]
  lhsNonContracting := [0]
  rhsNonContracting := [1]
  lhsBatch := []
  rhsBatch := []
  wf := dot_S4000x64_S64x40_S4000x40_1_0_0_1_n_n_wf

abbrev win0_0 : Pipeline.Window sig grid0 :=
  Pipeline.Window.ofSpec (Memref.whole main_v21) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S4000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S64x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S64x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S1x40.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S4000x40.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S40x64 : Shape := ⟨2, ![40, 64]⟩
abbrev S40 : Shape := ⟨1, ![40]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000x1 : Shape := ⟨2, ![100000, 1]⟩
abbrev S1x64 : Shape := ⟨2, ![1, 64]⟩
abbrev S64x40 : Shape := ⟨2, ![64, 40]⟩
abbrev S100000x40 : Shape := ⟨2, ![100000, 40]⟩
abbrev S1x40 : Shape := ⟨2, ![1, 40]⟩

abbrev nBuf : Space → Nat
  | .hbm => 79
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S40x64, .f32⟩
  | .hbm, ⟨6, _⟩ => ⟨S40x64, .f32⟩
  | .hbm, ⟨7, _⟩ => ⟨S40, .f32⟩
  | .hbm, ⟨8, _⟩ => ⟨S1x1200000, .i32⟩
  | .hbm, ⟨9, _⟩ => ⟨S1200000, .i32⟩
  | .hbm, ⟨10, _⟩ => ⟨S1x1200000, .i32⟩
  | .hbm, ⟨11, _⟩ => ⟨S1200000, .i32⟩
  | .hbm, ⟨12, _⟩ => ⟨S_, .i32⟩
  | .hbm, ⟨13, _⟩ => ⟨S1200000, .i32⟩
  | .hbm, ⟨14, _⟩ => ⟨S1200000, .i1⟩
  | .hbm, ⟨15, _⟩ => ⟨S_, .i32⟩
  | .hbm, ⟨16, _⟩ => ⟨S1200000, .i32⟩
  | .hbm, ⟨17, _⟩ => ⟨S1200000, .i32⟩
  | .hbm, ⟨18, _⟩ => ⟨S1200000, .i32⟩
  | .hbm, ⟨19, _⟩ => ⟨S1200000x1, .i32⟩
  | .hbm, ⟨20, _⟩ => ⟨S1200000x64, .f32⟩
  | .hbm, ⟨21, _⟩ => ⟨S_, .f32⟩
  | .hbm, ⟨22, _⟩ => ⟨S100000x64, .f32⟩
  | .hbm, ⟨23, _⟩ => ⟨S1200000x1, .i32⟩
  | .hbm, ⟨24, _⟩ => ⟨S100000x64, .f32⟩
  | .hbm, ⟨25, _⟩ => ⟨S_, .f32⟩
  | .hbm, ⟨26, _⟩ => ⟨S1200000x1, .f32⟩
  | .hbm, ⟨27, _⟩ => ⟨S_, .f32⟩
  | .hbm, ⟨28, _⟩ => ⟨S100000x1, .f32⟩
  | .hbm, ⟨29, _⟩ => ⟨S1200000x1, .i32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x64, .f32⟩
  | .hbm, ⟨35, _⟩ => ⟨S100000x64, .f32⟩
  | .hbm, ⟨36, _⟩ => ⟨S64x64, .f32⟩
  | .hbm, ⟨37, _⟩ => ⟨S100000x64, .f32⟩
  | .hbm, ⟨38, _⟩ => ⟨S64x64, .f32⟩
  | .hbm, ⟨39, _⟩ => ⟨S100000x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S_, .f32⟩
  | .hbm, ⟨45, _⟩ => ⟨S100000x64, .f32⟩
  | .hbm, ⟨46, _⟩ => ⟨S100000x64, .f32⟩
  | .hbm, ⟨47, _⟩ => ⟨S_, .i32⟩
  | .hbm, ⟨48, _⟩ => ⟨S1200000, .i32⟩
  | .hbm, ⟨49, _⟩ => ⟨S1200000, .i1⟩
  | .hbm, ⟨50, _⟩ => ⟨S_, .i32⟩
  | .hbm, ⟨51, _⟩ => ⟨S1200000, .i32⟩
  | .hbm, ⟨52, _⟩ => ⟨S1200000, .i32⟩
  | .hbm, ⟨53, _⟩ => ⟨S1200000, .i32⟩
  | .hbm, ⟨54, _⟩ => ⟨S1200000x1, .i32⟩
  | .hbm, ⟨55, _⟩ => ⟨S1200000x64, .f32⟩
  | .hbm, ⟨56, _⟩ => ⟨S_, .f32⟩
  | .hbm, ⟨57, _⟩ => ⟨S100000x64, .f32⟩
  | .hbm, ⟨58, _⟩ => ⟨S1200000x1, .i32⟩
  | .hbm, ⟨59, _⟩ => ⟨S100000x64, .f32⟩
  | .hbm, ⟨60, _⟩ => ⟨S_, .f32⟩
  | .hbm, ⟨61, _⟩ => ⟨S1200000x1, .f32⟩
  | .hbm, ⟨62, _⟩ => ⟨S_, .f32⟩
  | .hbm, ⟨63, _⟩ => ⟨S100000x1, .f32⟩
  | .hbm, ⟨64, _⟩ => ⟨S1200000x1, .i32⟩
  | .hbm, ⟨65, _⟩ => ⟨S100000x1, .f32⟩
  | .hbm, ⟨66, _⟩ => ⟨S_, .f32⟩
  | .hbm, ⟨67, _⟩ => ⟨S100000x1, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S64x40, .f32⟩
  | .hbm, ⟨72, _⟩ => ⟨S100000x40, .f32⟩
  | .hbm, ⟨73, _⟩ => ⟨S64x40, .f32⟩
  | .hbm, ⟨74, _⟩ => ⟨S100000x40, .f32⟩
  | .hbm, ⟨75, _⟩ => ⟨S100000x40, .f32⟩
  | .hbm, ⟨76, _⟩ => ⟨S1x40, .f32⟩
  | .hbm, ⟨77, _⟩ => ⟨S100000x40, .f32⟩
  | .hbm, ⟨78, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S1200000x1 : S_.BroadcastsInDim S1200000x1 (![] : Fin 0 → Fin S1200000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S40x64_S64x40_1_0 : S40x64.Transposes [1, 0] S64x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000x1_S1200000x1_S1200000x1_1_0_0_1_wf : ScatterDims.WF S100000x1 S1200000x1 S1200000x1 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000x1_S1200000x1_S1200000x1_1_0_0_1 : ScatterDims S100000x1 S1200000x1 S1200000x1 where
  updateWindowDims := [1]
  insertedWindowDims := [0]
  scatterDimsToOperandDims := [0]
  indexVectorDim := 1
  wf := scatter_S100000x1_S1200000x1_S1200000x1_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.KernelRun.lean ====
/-
  The idealized kernel's whole run with its result named. The program is four segments: the host operations before
  the first region, the first region, the host operations between, the second region. Every weakly fair execution
  ends with every unscoped buffer at the last boundary's contents `Gen.W4` — the fold, from the launch memory, of
  each host stretch's operations and each region's write-backs — so the result buffer ends at `Gen.W4` read there,
  and each argument, which nothing writes, as launched.
-/
import proofs.«169561_j46231027974474_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the arguments as launched: the launch over the four segments, the last thread state read against the final
    state, once more at the result's buffer. -/
theorem run : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v40 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.Sage.lean ====
/-
  One dense layer of a GraphSAGE network, as a function of arrays, entry by entry.

  For a node `p` and an output feature `o`, with `A` the summed neighbour features, `S` a per-node scale (the
  reciprocal of the neighbour count), `X` the node's own features, `Wl`, `Wr` the two weight matrices already
  transposed to [K, D] and `B` the bias as a [1, D] row:

      rowVal p o = (sum over k of (A[p,k] * S[p,0]) * Wl[k,o]) + (sum over k of X[p,k] * Wr[k,o]) + B[0,o].

  The hidden layer is the positive part of this (`hidden`), the output layer is it as it stands (`output`). The only law
  of the extended reals used beside commutative-monoid reasoning is that dividing by a nonzero real is multiplying by
  its reciprocal, on every extended real (`div_eq_mul_inv`).
-/
import Idealize.ShloMosaic.PureOps.Ideal
import Idealize.ShloMosaic.Lib.ValueIdx

noncomputable section

open scoped BigOperators

namespace Cert.Sage

open Idealize.ShloMosaic Idealize.ShloMosaic.ValueIdx

/-- Entry (p, o) of a dense layer before its activation. -/
def rowVal {N K D : ℕ} (A : (⟨2, ![N, K]⟩ : Shape).Idx → EReal) (S : (⟨2, ![N, 1]⟩ : Shape).Idx → EReal)
    (X : (⟨2, ![N, K]⟩ : Shape).Idx → EReal) (Wl Wr : (⟨2, ![K, D]⟩ : Shape).Idx → EReal)
    (B : (⟨2, ![1, D]⟩ : Shape).Idx → EReal) (p : Fin N) (o : Fin D) : EReal :=
  ((∑ k : Fin K, (A (ix2 p k) * S (ix2 p (0 : Fin 1))) * Wl (ix2 k o)) + ∑ k : Fin K, X (ix2 p k) * Wr (ix2 k o))
    + B (ix2 (0 : Fin 1) o)

/-- The float literal +0.0 read as an extended real (never evaluated: the same word stands on both sides). -/
def zero32 : EReal := Ideal.ofBits .f32 0x00000000#32

/-- The hidden layer: the positive part of the dense layer, as one array. -/
def hidden {N K D : ℕ} (A : (⟨2, ![N, K]⟩ : Shape).Idx → EReal) (S : (⟨2, ![N, 1]⟩ : Shape).Idx → EReal)
    (X : (⟨2, ![N, K]⟩ : Shape).Idx → EReal) (Wl Wr : (⟨2, ![K, D]⟩ : Shape).Idx → EReal)
    (B : (⟨2, ![1, D]⟩ : Shape).Idx → EReal) : (⟨2, ![N, D]⟩ : Shape).Idx → EReal :=
  fun i => max (rowVal A S X Wl Wr B (i 0) (i 1)) zero32

/-- The output layer: the dense layer with no activation, as one array. -/
def output {N K D : ℕ} (A : (⟨2, ![N, K]⟩ : Shape).Idx → EReal) (S : (⟨2, ![N, 1]⟩ : Shape).Idx → EReal)
    (X : (⟨2, ![N, K]⟩ : Shape).Idx → EReal) (Wl Wr : (⟨2, ![K, D]⟩ : Shape).Idx → EReal)
    (B : (⟨2, ![1, D]⟩ : Shape).Idx → EReal) : (⟨2, ![N, D]⟩ : Shape).Idx → EReal :=
  fun i => rowVal A S X Wl Wr B (i 0) (i 1)

/-- The dense layer's entry depends on its arrays only through row p of the node arrays, column o of the weights and
    of the bias: two sets of arrays that agree there (a block and the array it is cut from) give one entry. -/
theorem rowVal_congr {N N' K D : ℕ} (A : (⟨2, ![N, K]⟩ : Shape).Idx → EReal) (S : (⟨2, ![N, 1]⟩ : Shape).Idx → EReal)
    (X : (⟨2, ![N, K]⟩ : Shape).Idx → EReal) (Wl Wr : (⟨2, ![K, D]⟩ : Shape).Idx → EReal)
    (B : (⟨2, ![1, D]⟩ : Shape).Idx → EReal)
    (A' : (⟨2, ![N', K]⟩ : Shape).Idx → EReal) (S' : (⟨2, ![N', 1]⟩ : Shape).Idx → EReal)
    (X' : (⟨2, ![N', K]⟩ : Shape).Idx → EReal) (Wl' Wr' : (⟨2, ![K, D]⟩ : Shape).Idx → EReal)
    (B' : (⟨2, ![1, D]⟩ : Shape).Idx → EReal) (p : Fin N) (p' : Fin N') (o : Fin D)
    (hA : ∀ k : Fin K, A (ix2 p k) = A' (ix2 p' k)) (hS : S (ix2 p (0 : Fin 1)) = S' (ix2 p' (0 : Fin 1)))
    (hX : ∀ k : Fin K, X (ix2 p k) = X' (ix2 p' k)) (hWl : ∀ k : Fin K, Wl (ix2 k o) = Wl' (ix2 k o))
    (hWr : ∀ k : Fin K, Wr (ix2 k o) = Wr' (ix2 k o)) (hB : B (ix2 (0 : Fin 1) o) = B' (ix2 (0 : Fin 1) o)) :
    rowVal A S X Wl Wr B p o = rowVal A' S' X' Wl' Wr' B' p' o := by
  unfold rowVal
  simp only [hA, hS, hX, hWl, hWr, hB]

/-- Dividing by a nonzero real is multiplying by its reciprocal, whatever extended real is divided. -/
theorem div_eq_mul_inv {y : ℝ} (hy : y ≠ 0) (a : EReal) :
    Ideal.div a (y : EReal) = a * Ideal.div 1 (y : EReal) := by
  rw [Ideal.div_coe hy, Ideal.div_coe hy, one_mul]

end Cert.Sage

end
-- ==== Proof.LibColumns.lean ====
/-
  Two layout operations on a column, read at an index: a vector of length `a` cast to an `a × 1` column,
  and an `a × 1` column broadcast along the rows of an `a × b` array.
-/
import Idealize.ShloMosaic.Lib.Pipeline.Value
import Idealize.ShloMosaic.Lib.ValueIdx

namespace Idealize.ShloMosaic.ValueIdx

open Idealize.ShloMosaic

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Body0.lean ====
/-
  Region 0's body at an index: entry (r, o) of the block the body stores is the dense layer's entry (r, o) of the
  blocks it loads, made positive. The two matrix products are sums over the 64 input features (a product into a zero
  accumulator is the plain sum), a change of float format is the identity on extended reals, the [4000, 1] scale
  column is read at its row and the [1, 64] bias row at its column.
-/
import proofs.«169561_j46231027974474_2_alg».proof.Proof.Gen.KernelIdeal.Skeleton
import proofs.«169561_j46231027974474_2_alg».proof.Proof.Sage
import proofs.«169561_j46231027974474_2_alg».proof.Proof.LibColumns
import Idealize.ShloMosaic.PureOps.Ideal.Laws
import Idealize.ShloMosaic.Lib.Pipeline.Value
import Idealize.ShloMosaic.Lib.ValueLayout
import Idealize.ShloMosaic.Lib.ValueIdx

noncomputable section

open scoped BigOperators

namespace Cert.KernelIdeal.Body0

open Cert.KernelIdeal Cert.KernelIdeal.Gen Idealize.ShloMosaic Idealize.ShloMosaic.ValueIdx

/-- The body's matrix product: [4000, 64] times [64, 64], contracting the 64 input features. -/
abbrev Dt := dot_S4000x64_S64x64_S4000x64_1_0_0_1_n_n

theorem lhs_row (i : S4000x64.Idx) (q : Dt.contr.Idx) : (Dt.lhsIdx i q 0).val = (i 0).val := by
  unfold DotDims.lhsIdx
  rw [dif_neg (show ¬(0 : Fin S4000x64.rank) ∈ Dt.lhsBatch by decide), dif_pos (show (0 : Fin S4000x64.rank) ∈ Dt.lhsNonContracting by decide)]
  rfl

theorem lhs_col (i : S4000x64.Idx) (q : Dt.contr.Idx) : (Dt.lhsIdx i q 1).val = (q ⟨0, by decide⟩).val :=
  Dt.lhsIdx_val_of_single rfl i q

theorem rhs_row (i : S4000x64.Idx) (q : Dt.contr.Idx) : (Dt.rhsIdx i q 0).val = (q ⟨0, by decide⟩).val :=
  Dt.rhsIdx_val_of_single rfl i q

theorem rhs_col (i : S4000x64.Idx) (q : Dt.contr.Idx) : (Dt.rhsIdx i q 1).val = (i 1).val := by
  unfold DotDims.rhsIdx
  rw [dif_neg (show ¬(1 : Fin S64x64.rank) ∈ Dt.rhsBatch by decide), dif_pos (show (1 : Fin S64x64.rank) ∈ Dt.rhsNonContracting by decide)]
  rfl

/-- A product into the zero accumulator, at (p, o): the sum over the input features k of left[p, k] * right[k, o]. -/
theorem matmul_apply {φ₁ φ₂ : FTy} (l : FVec Ideal S4000x64 φ₁) (r : FVec Ideal S64x64 φ₂) (p : Fin 4000) (o : Fin 64) :
    matmul Dt none l r (constant (F := Ideal) S4000x64 .f32 0x00000000#32) (ix2 p o) = ∑ k : Fin 64, l (ix2 p k) * r (ix2 k o) := by
  refine (Ideal.matmul_constant_zero_apply Dt none l r (ix2 p o)).trans ?_
  rw [← Equiv.sum_comp (ValueIdx.contrEquiv1 Dt 64 rfl rfl).symm]
  refine Finset.sum_congr rfl fun k _ => ?_
  have hk := ValueIdx.contrEquiv1_symm_val Dt 64 rfl rfl k
  have el : Dt.lhsIdx (ix2 p o) ((ValueIdx.contrEquiv1 Dt 64 rfl rfl).symm k) = ix2 p k := funext fun a => Fin.ext (by
    match a with
    | ⟨0, _⟩ => exact lhs_row _ _
    | ⟨1, _⟩ => exact (lhs_col _ _).trans hk)
  have er : Dt.rhsIdx (ix2 p o) ((ValueIdx.contrEquiv1 Dt 64 rfl rfl).symm k) = ix2 k o := funext fun a => Fin.ext (by
    match a with
    | ⟨0, _⟩ => exact (rhs_row _ _).trans hk
    | ⟨1, _⟩ => exact rhs_col _ _)
  rw [el, er]

/-- THE BODY'S STORED VALUE at (r, o), from the blocks it loads. -/
theorem pay_apply (x0 : Vec Ideal S4000x64 .f32) (x2 : Vec Ideal S4000x1 .f32) (x1 : Vec Ideal S4000x64 .f32)
    (x3 x4 : Vec Ideal S64x64 .f32) (x5 : Vec Ideal S1x64 .f32) (r : Fin 4000) (o : Fin 64) :
    k0_pay1 (F := Ideal) x0 x2 x1 x3 x4 x5 (ix2 r o) = max (Sage.rowVal x0 x2 x1 x3 x4 x5 r o) Sage.zero32 := by
  unfold k0_pay1 Sage.rowVal Sage.zero32
  show max ((matmul (F := Ideal) Dt none _ _ _ (ix2 r o) + matmul (F := Ideal) Dt none _ _ _ (ix2 r o))
      + broadcastTo S4000x64 (shapeCast S1x64 x5 shapeCasts_S1x64_S1x64) broadcasts_S1x64_S4000x64 (ix2 r o)) (Ideal.ofBits .f32 0x00000000#32) = _
  rw [matmul_apply, matmul_apply, broadcastTo_1b_ab_apply]
  simp only [truncf_apply, mulf_apply, shapeCast_self, broadcastTo_a1_ab_apply]

end Cert.KernelIdeal.Body0

end
-- ==== Proof.Block0.lean ====
/-
  Region 0, from blocks to the whole array. Grid point t works on rows 4000 t .. 4000 t + 3999: its three node-array
  blocks are those rows of their arrays, its weight and bias blocks are the whole arrays, and the block it writes
  back is those rows of the hidden layer of the arrays as the region finds them. The 25 blocks tile the 100000
  rows, so the region's result array ends as that layer.
-/
import proofs.«169561_j46231027974474_2_alg».proof.Proof.Gen.KernelIdeal.Frame
import proofs.«169561_j46231027974474_2_alg».proof.Proof.Body0
import Idealize.ShloMosaic.Lib.Pipeline.Value

set_option maxRecDepth 16384

noncomputable section

namespace Cert.KernelIdeal.Block0

open Cert.KernelIdeal Cert.KernelIdeal.Gen Idealize.ShloMosaic Idealize.ShloMosaic.TcCoe Idealize.ShloMosaic.ValueIdx
open Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the node windows and the output sit at block row t, column block 0;
    the weight and bias windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row r of grid point t's blocks is row 4000 t + r of the arrays. -/
def rowOf (t : Fin cfg0.N) (r : Fin 4000) : Fin 100000 :=
  ⟨4000 * t.val + r.val, by
    have ht : t.val < grid0.N := t.isLt
    have hN : grid0.N = 25 := Gen.N_0
    have hr := r.isLt
    omega⟩

/-- The region's result as one function of the arrays it finds: the hidden layer. -/
abbrev G (c : Dev nD) : S100000x64.Idx → EReal :=
  Sage.hidden (V c main_v21) (V c main_v11) (V c main_arg0) (V c main_v22) (V c main_v23) (V c main_v24)

theorem read0 (c : Dev nD) (t : Fin cfg0.N) (r : Fin 4000) (k : Fin 64) :
    iblk0 V c 0 t (ix2 r k) = V c main_v21 (ix2 (rowOf t r) k) := by
  obtain ⟨e0, e1, -⟩ := idx_facts t
  show V c main_v21 (((cfg0.win 0).blk t).view.emb (ix2 r k)) = _
  refine congrArg (V c main_v21) (funext fun a => Fin.ext ?_)
  match a with
  | ⟨0, _⟩ => show win0_0.index t (0 : Fin 2) * 4000 + 1 * r.val = 4000 * t.val + r.val; omega
  | ⟨1, _⟩ => show win0_0.index t (1 : Fin 2) * 64 + 1 * k.val = k.val; omega

theorem read1 (c : Dev nD) (t : Fin cfg0.N) (r : Fin 4000) (k : Fin 64) :
    iblk0 V c 1 t (ix2 r k) = V c main_arg0 (ix2 (rowOf t r) k) := by
  obtain ⟨-, -, e0, e1, -⟩ := idx_facts t
  show V c main_arg0 (((cfg0.win 1).blk t).view.emb (ix2 r k)) = _
  refine congrArg (V c main_arg0) (funext fun a => Fin.ext ?_)
  match a with
  | ⟨0, _⟩ => show win0_1.index t (0 : Fin 2) * 4000 + 1 * r.val = 4000 * t.val + r.val; omega
  | ⟨1, _⟩ => show win0_1.index t (1 : Fin 2) * 64 + 1 * k.val = k.val; omega

theorem read2 (c : Dev nD) (t : Fin cfg0.N) (r : Fin 4000) :
    iblk0 V c 2 t (ix2 r (0 : Fin 1)) = V c main_v11 (ix2 (rowOf t r) (0 : Fin 1)) := by
  obtain ⟨-, -, -, -, e0, e1, -⟩ := idx_facts t
  show V c main_v11 (((cfg0.win 2).blk t).view.emb (ix2 r (0 : Fin 1))) = _
  refine congrArg (V c main_v11) (funext fun a => Fin.ext ?_)
  match a with
  | ⟨0, _⟩ => show win0_2.index t (0 : Fin 2) * 4000 + 1 * r.val = 4000 * t.val + r.val; omega
  | ⟨1, _⟩ => show win0_2.index t (1 : Fin 2) * 1 + 1 * 0 = 0; omega

theorem read3 (c : Dev nD) (t : Fin cfg0.N) (k : Fin 64) (o : Fin 64) :
    iblk0 V c 3 t (ix2 k o) = V c main_v22 (ix2 k o) := by
  obtain ⟨-, -, -, -, -, -, e0, e1, -⟩ := idx_facts t
  show V c main_v22 (((cfg0.win 3).blk t).view.emb (ix2 k o)) = _
  refine congrArg (V c main_v22) (funext fun a => Fin.ext ?_)
  match a with
  | ⟨0, _⟩ => show win0_3.index t (0 : Fin 2) * 64 + 1 * k.val = k.val; omega
  | ⟨1, _⟩ => show win0_3.index t (1 : Fin 2) * 64 + 1 * o.val = o.val; omega

theorem read4 (c : Dev nD) (t : Fin cfg0.N) (k : Fin 64) (o : Fin 64) :
    iblk0 V c 4 t (ix2 k o) = V c main_v23 (ix2 k o) := by
  obtain ⟨-, -, -, -, -, -, -, -, e0, e1, -⟩ := idx_facts t
  show V c main_v23 (((cfg0.win 4).blk t).view.emb (ix2 k o)) = _
  refine congrArg (V c main_v23) (funext fun a => Fin.ext ?_)
  match a with
  | ⟨0, _⟩ => show win0_4.index t (0 : Fin 2) * 64 + 1 * k.val = k.val; omega
  | ⟨1, _⟩ => show win0_4.index t (1 : Fin 2) * 64 + 1 * o.val = o.val; omega

theorem read5 (c : Dev nD) (t : Fin cfg0.N) (o : Fin 64) :
    iblk0 V c 5 t (ix2 (0 : Fin 1) o) = V c main_v24 (ix2 (0 : Fin 1) o) := by
  obtain ⟨-, -, -, -, -, -, -, -, -, -, e0, e1, -⟩ := idx_facts t
  show V c main_v24 (((cfg0.win 5).blk t).view.emb (ix2 (0 : Fin 1) o)) = _
  refine congrArg (V c main_v24) (funext fun a => Fin.ext ?_)
  match a with
  | ⟨0, _⟩ => show win0_5.index t (0 : Fin 2) * 1 + 1 * 0 = 0; omega
  | ⟨1, _⟩ => show win0_5.index t (1 : Fin 2) * 64 + 1 * o.val = o.val; omega

/-- Where the output block's entry (r, o) sits in the result array. -/
theorem emb6 (t : Fin cfg0.N) (r : Fin 4000) (o : Fin 64) :
    ((cfg0.win 6).blk t).view.emb (ix2 r o) = (ix2 (rowOf t r) o : S100000x64.Idx) := by
  obtain ⟨-, -, -, -, -, -, -, -, -, -, -, -, e0, e1⟩ := idx_facts t
  funext a; apply Fin.ext
  match a with
  | ⟨0, _⟩ => show win0_6.index t (0 : Fin 2) * 4000 + 1 * r.val = 4000 * t.val + r.val; omega
  | ⟨1, _⟩ => show win0_6.index t (1 : Fin 2) * 64 + 1 * o.val = o.val; omega

/-- WHAT POINT t WRITES BACK is block t of the layer of the arrays the region finds. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S4000x64) hz, View.ld_unit_zero (S := S4000x1) hz, View.ld_unit_zero (S := S64x64) hz, View.ld_unit_zero (S := S1x64) hz]
  funext j
  obtain ⟨r, o, rfl⟩ : ∃ (r : Fin 4000) (o : Fin 64), j = ix2 r o := ⟨j 0, j 1, eq_ix2 j⟩
  show k0_pay1 (iblk0 V c 0 t) (iblk0 V c 2 t) (iblk0 V c 1 t) (iblk0 V c 3 t) (iblk0 V c 4 t) (iblk0 V c 5 t) (ix2 r o)
    = G V c (((cfg0.win 6).blk t).view.emb (ix2 r o))
  rw [emb6]
  refine (Body0.pay_apply _ _ _ _ _ _ r o).trans ?_
  show max _ Sage.zero32 = max (Sage.rowVal (V c main_v21) (V c main_v11) (V c main_arg0) (V c main_v22) (V c main_v23) (V c main_v24) (rowOf t r) o) Sage.zero32
  refine congrArg (fun z => max z Sage.zero32) ?_
  exact Sage.rowVal_congr (iblk0 V c 0 t) (iblk0 V c 2 t) (iblk0 V c 1 t) (iblk0 V c 3 t) (iblk0 V c 4 t) (iblk0 V c 5 t)
    (V c main_v21) (V c main_v11) (V c main_arg0) (V c main_v22) (V c main_v23) (V c main_v24) r (rowOf t r) o
    (fun k => read0 V c t r k) (read2 V c t r) (fun k => read1 V c t r k) (fun k => read3 V c t k o) (fun k => read4 V c t k o) (read5 V c t o)

/-- An index of the result array is in point t's block iff each coordinate is in the block's range on its axis. -/
theorem mem_blk (t : Fin cfg0.N) (i : S100000x64.Idx) :
    i ∈ ((cfg0.win 6).blk t).view.set ↔ ∀ a : Fin 2, win0_6.index t a * S4000x64.size a ≤ (i a).val ∧ (i a).val < win0_6.index t a * S4000x64.size a + S4000x64.size a := by
  show i ∈ ((View.whole main_v25).slice (win0_6.rect t)).set ↔ _
  rw [View.set_slice_whole, Rect.mem_set_unit]
  exact Iff.rfl

/-- The 25 row blocks tile the array: row p is in the block of point p / 4000. -/
theorem cover (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : grid0.N = 25 := Gen.N_0
  have hlt : (i 0).val / 4000 < grid0.N := by omega
  obtain ⟨-, -, -, -, -, -, -, -, -, -, -, -, e0, e1⟩ := idx_facts (⟨(i 0).val / 4000, hlt⟩ : Fin cfg0.N)
  refine ⟨⟨(i 0).val / 4000, hlt⟩, flush0_6 _, ?_⟩
  rw [mem_blk]
  intro a
  match a with
  | ⟨0, _⟩ =>
    show win0_6.index ⟨(i 0).val / 4000, hlt⟩ (0 : Fin 2) * 4000 ≤ (i 0).val ∧ (i 0).val < win0_6.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win0_6.index ⟨(i 0).val / 4000, hlt⟩ (1 : Fin 2) * 64 ≤ (i 1).val ∧ (i 1).val < win0_6.index ⟨(i 0).val / 4000, hlt⟩ (1 : Fin 2) * 64 + 64
    rw [e1]; omega

/-- THE REGION'S RESULT ARRAY after the run: the hidden layer of the arrays the region finds. -/
theorem final (c : Dev nD) : (dat0 V c).arrAt 6 cfg0.N = G V c :=
  (dat0 V c).arrAt_eq_of_cover 6 (G V c) (fun t _ => flushed_eq V c t) cover

end Cert.KernelIdeal.Block0

end
-- ==== Proof.Body1.lean ====
/-
  Region 1's body at an index: entry (r, o) of the block the body stores is the dense layer's entry (r, o) of the
  blocks it loads. The two matrix products are sums over the 64 input features (a product into a zero
  accumulator is the plain sum), a change of float format is the identity on extended reals, the [4000, 1] scale
  column is read at its row and the [1, 40] bias row at its column.
-/
import proofs.«169561_j46231027974474_2_alg».proof.Proof.Gen.KernelIdeal.Skeleton
import proofs.«169561_j46231027974474_2_alg».proof.Proof.Sage
import proofs.«169561_j46231027974474_2_alg».proof.Proof.LibColumns
import Idealize.ShloMosaic.PureOps.Ideal.Laws
import Idealize.ShloMosaic.Lib.Pipeline.Value
import Idealize.ShloMosaic.Lib.ValueLayout
import Idealize.ShloMosaic.Lib.ValueIdx

noncomputable section

open scoped BigOperators

namespace Cert.KernelIdeal.Body1

open Cert.KernelIdeal Cert.KernelIdeal.Gen Idealize.ShloMosaic Idealize.ShloMosaic.ValueIdx

/-- The body's matrix product: [4000, 64] times [64, 40], contracting the 64 input features. -/
abbrev Dt := dot_S4000x64_S64x40_S4000x40_1_0_0_1_n_n

theorem lhs_row (i : S4000x40.Idx) (q : Dt.contr.Idx) : (Dt.lhsIdx i q 0).val = (i 0).val := by
  unfold DotDims.lhsIdx
  rw [dif_neg (show ¬(0 : Fin S4000x64.rank) ∈ Dt.lhsBatch by decide), dif_pos (show (0 : Fin S4000x64.rank) ∈ Dt.lhsNonContracting by decide)]
  rfl

theorem lhs_col (i : S4000x40.Idx) (q : Dt.contr.Idx) : (Dt.lhsIdx i q 1).val = (q ⟨0, by decide⟩).val :=
  Dt.lhsIdx_val_of_single rfl i q

theorem rhs_row (i : S4000x40.Idx) (q : Dt.contr.Idx) : (Dt.rhsIdx i q 0).val = (q ⟨0, by decide⟩).val :=
  Dt.rhsIdx_val_of_single rfl i q

theorem rhs_col (i : S4000x40.Idx) (q : Dt.contr.Idx) : (Dt.rhsIdx i q 1).val = (i 1).val := by
  unfold DotDims.rhsIdx
  rw [dif_neg (show ¬(1 : Fin S64x40.rank) ∈ Dt.rhsBatch by decide), dif_pos (show (1 : Fin S64x40.rank) ∈ Dt.rhsNonContracting by decide)]
  rfl

/-- A product into the zero accumulator, at (p, o): the sum over the input features k of left[p, k] * right[k, o]. -/
theorem matmul_apply {φ₁ φ₂ : FTy} (l : FVec Ideal S4000x64 φ₁) (r : FVec Ideal S64x40 φ₂) (p : Fin 4000) (o : Fin 40) :
    matmul Dt none l r (constant (F := Ideal) S4000x40 .f32 0x00000000#32) (ix2 p o) = ∑ k : Fin 64, l (ix2 p k) * r (ix2 k o) := by
  refine (Ideal.matmul_constant_zero_apply Dt none l r (ix2 p o)).trans ?_
  rw [← Equiv.sum_comp (ValueIdx.contrEquiv1 Dt 64 rfl rfl).symm]
  refine Finset.sum_congr rfl fun k _ => ?_
  have hk := ValueIdx.contrEquiv1_symm_val Dt 64 rfl rfl k
  have el : Dt.lhsIdx (ix2 p o) ((ValueIdx.contrEquiv1 Dt 64 rfl rfl).symm k) = ix2 p k := funext fun a => Fin.ext (by
    match a with
    | ⟨0, _⟩ => exact lhs_row _ _
    | ⟨1, _⟩ => exact (lhs_col _ _).trans hk)
  have er : Dt.rhsIdx (ix2 p o) ((ValueIdx.contrEquiv1 Dt 64 rfl rfl).symm k) = ix2 k o := funext fun a => Fin.ext (by
    match a with
    | ⟨0, _⟩ => exact (rhs_row _ _).trans hk
    | ⟨1, _⟩ => exact rhs_col _ _)
  rw [el, er]

/-- THE BODY'S STORED VALUE at (r, o), from the blocks it loads. -/
theorem pay_apply (x0 : Vec Ideal S4000x64 .f32) (x2 : Vec Ideal S4000x1 .f32) (x1 : Vec Ideal S4000x64 .bf16)
    (x3 x4 : Vec Ideal S64x40 .f32) (x5 : Vec Ideal S1x40 .f32) (r : Fin 4000) (o : Fin 40) :
    k1_pay1 (F := Ideal) x0 x2 x1 x3 x4 x5 (ix2 r o) = Sage.rowVal x0 x2 x1 x3 x4 x5 r o := by
  unfold k1_pay1 Sage.rowVal
  show (matmul (F := Ideal) Dt none _ _ _ (ix2 r o) + matmul (F := Ideal) Dt none _ _ _ (ix2 r o))
      + broadcastTo S4000x40 (shapeCast S1x40 x5 shapeCasts_S1x40_S1x40) broadcasts_S1x40_S4000x40 (ix2 r o) = _
  rw [matmul_apply, matmul_apply, broadcastTo_1b_ab_apply]
  simp only [truncf_apply, mulf_apply, shapeCast_self, broadcastTo_a1_ab_apply]

end Cert.KernelIdeal.Body1

end
-- ==== Proof.Block1.lean ====
/-
  Region 1, from blocks to the whole array. Grid point t works on rows 4000 t .. 4000 t + 3999: its three node-array
  blocks are those rows of their arrays, its weight and bias blocks are the whole arrays, and the block it writes
  back is those rows of the output layer of the arrays as the region finds them. The 25 blocks tile the 100000
  rows, so the region's result array ends as that layer.
-/
import proofs.«169561_j46231027974474_2_alg».proof.Proof.Gen.KernelIdeal.Frame
import proofs.«169561_j46231027974474_2_alg».proof.Proof.Body1
import Idealize.ShloMosaic.Lib.Pipeline.Value

set_option maxRecDepth 16384

noncomputable section

namespace Cert.KernelIdeal.Block1

open Cert.KernelIdeal Cert.KernelIdeal.Gen Idealize.ShloMosaic Idealize.ShloMosaic.TcCoe Idealize.ShloMosaic.ValueIdx
open Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the node windows and the output sit at block row t, column block 0;
    the weight and bias windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row r of grid point t's blocks is row 4000 t + r of the arrays. -/
def rowOf (t : Fin cfg1.N) (r : Fin 4000) : Fin 100000 :=
  ⟨4000 * t.val + r.val, by
    have ht : t.val < grid1.N := t.isLt
    have hN : grid1.N = 25 := Gen.N_1
    have hr := r.isLt
    omega⟩

/-- The region's result as one function of the arrays it finds: the output layer. -/
abbrev G (c : Dev nD) : S100000x40.Idx → EReal :=
  Sage.output (V c main_v36) (V c main_v11) (V c main_v25) (V c main_v37) (V c main_v38) (V c main_v39)

theorem read0 (c : Dev nD) (t : Fin cfg1.N) (r : Fin 4000) (k : Fin 64) :
    iblk1 V c 0 t (ix2 r k) = V c main_v36 (ix2 (rowOf t r) k) := by
  obtain ⟨e0, e1, -⟩ := idx_facts t
  show V c main_v36 (((cfg1.win 0).blk t).view.emb (ix2 r k)) = _
  refine congrArg (V c main_v36) (funext fun a => Fin.ext ?_)
  match a with
  | ⟨0, _⟩ => show win1_0.index t (0 : Fin 2) * 4000 + 1 * r.val = 4000 * t.val + r.val; omega
  | ⟨1, _⟩ => show win1_0.index t (1 : Fin 2) * 64 + 1 * k.val = k.val; omega

theorem read1 (c : Dev nD) (t : Fin cfg1.N) (r : Fin 4000) (k : Fin 64) :
    iblk1 V c 1 t (ix2 r k) = V c main_v25 (ix2 (rowOf t r) k) := by
  obtain ⟨-, -, e0, e1, -⟩ := idx_facts t
  show V c main_v25 (((cfg1.win 1).blk t).view.emb (ix2 r k)) = _
  refine congrArg (V c main_v25) (funext fun a => Fin.ext ?_)
  match a with
  | ⟨0, _⟩ => show win1_1.index t (0 : Fin 2) * 4000 + 1 * r.val = 4000 * t.val + r.val; omega
  | ⟨1, _⟩ => show win1_1.index t (1 : Fin 2) * 64 + 1 * k.val = k.val; omega

theorem read2 (c : Dev nD) (t : Fin cfg1.N) (r : Fin 4000) :
    iblk1 V c 2 t (ix2 r (0 : Fin 1)) = V c main_v11 (ix2 (rowOf t r) (0 : Fin 1)) := by
  obtain ⟨-, -, -, -, e0, e1, -⟩ := idx_facts t
  show V c main_v11 (((cfg1.win 2).blk t).view.emb (ix2 r (0 : Fin 1))) = _
  refine congrArg (V c main_v11) (funext fun a => Fin.ext ?_)
  match a with
  | ⟨0, _⟩ => show win1_2.index t (0 : Fin 2) * 4000 + 1 * r.val = 4000 * t.val + r.val; omega
  | ⟨1, _⟩ => show win1_2.index t (1 : Fin 2) * 1 + 1 * 0 = 0; omega

theorem read3 (c : Dev nD) (t : Fin cfg1.N) (k : Fin 64) (o : Fin 40) :
    iblk1 V c 3 t (ix2 k o) = V c main_v37 (ix2 k o) := by
  obtain ⟨-, -, -, -, -, -, e0, e1, -⟩ := idx_facts t
  show V c main_v37 (((cfg1.win 3).blk t).view.emb (ix2 k o)) = _
  refine congrArg (V c main_v37) (funext fun a => Fin.ext ?_)
  match a with
  | ⟨0, _⟩ => show win1_3.index t (0 : Fin 2) * 64 + 1 * k.val = k.val; omega
  | ⟨1, _⟩ => show win1_3.index t (1 : Fin 2) * 40 + 1 * o.val = o.val; omega

theorem read4 (c : Dev nD) (t : Fin cfg1.N) (k : Fin 64) (o : Fin 40) :
    iblk1 V c 4 t (ix2 k o) = V c main_v38 (ix2 k o) := by
  obtain ⟨-, -, -, -, -, -, -, -, e0, e1, -⟩ := idx_facts t
  show V c main_v38 (((cfg1.win 4).blk t).view.emb (ix2 k o)) = _
  refine congrArg (V c main_v38) (funext fun a => Fin.ext ?_)
  match a with
  | ⟨0, _⟩ => show win1_4.index t (0 : Fin 2) * 64 + 1 * k.val = k.val; omega
  | ⟨1, _⟩ => show win1_4.index t (1 : Fin 2) * 40 + 1 * o.val = o.val; omega

theorem read5 (c : Dev nD) (t : Fin cfg1.N) (o : Fin 40) :
    iblk1 V c 5 t (ix2 (0 : Fin 1) o) = V c main_v39 (ix2 (0 : Fin 1) o) := by
  obtain ⟨-, -, -, -, -, -, -, -, -, -, e0, e1, -⟩ := idx_facts t
  show V c main_v39 (((cfg1.win 5).blk t).view.emb (ix2 (0 : Fin 1) o)) = _
  refine congrArg (V c main_v39) (funext fun a => Fin.ext ?_)
  match a with
  | ⟨0, _⟩ => show win1_5.index t (0 : Fin 2) * 1 + 1 * 0 = 0; omega
  | ⟨1, _⟩ => show win1_5.index t (1 : Fin 2) * 40 + 1 * o.val = o.val; omega

/-- Where the output block's entry (r, o) sits in the result array. -/
theorem emb6 (t : Fin cfg1.N) (r : Fin 4000) (o : Fin 40) :
    ((cfg1.win 6).blk t).view.emb (ix2 r o) = (ix2 (rowOf t r) o : S100000x40.Idx) := by
  obtain ⟨-, -, -, -, -, -, -, -, -, -, -, -, e0, e1⟩ := idx_facts t
  funext a; apply Fin.ext
  match a with
  | ⟨0, _⟩ => show win1_6.index t (0 : Fin 2) * 4000 + 1 * r.val = 4000 * t.val + r.val; omega
  | ⟨1, _⟩ => show win1_6.index t (1 : Fin 2) * 40 + 1 * o.val = o.val; omega

/-- WHAT POINT t WRITES BACK is block t of the layer of the arrays the region finds. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S4000x64) hz, View.ld_unit_zero (S := S4000x1) hz, View.ld_unit_zero (S := S64x40) hz, View.ld_unit_zero (S := S1x40) hz]
  funext j
  obtain ⟨r, o, rfl⟩ : ∃ (r : Fin 4000) (o : Fin 40), j = ix2 r o := ⟨j 0, j 1, eq_ix2 j⟩
  show k1_pay1 (iblk1 V c 0 t) (iblk1 V c 2 t) (iblk1 V c 1 t) (iblk1 V c 3 t) (iblk1 V c 4 t) (iblk1 V c 5 t) (ix2 r o)
    = G V c (((cfg1.win 6).blk t).view.emb (ix2 r o))
  rw [emb6]
  refine (Body1.pay_apply _ _ _ _ _ _ r o).trans ?_
  show Sage.rowVal _ _ _ _ _ _ r o = Sage.rowVal (V c main_v36) (V c main_v11) (V c main_v25) (V c main_v37) (V c main_v38) (V c main_v39) (rowOf t r) o
  exact Sage.rowVal_congr (iblk1 V c 0 t) (iblk1 V c 2 t) (iblk1 V c 1 t) (iblk1 V c 3 t) (iblk1 V c 4 t) (iblk1 V c 5 t)
    (V c main_v36) (V c main_v11) (V c main_v25) (V c main_v37) (V c main_v38) (V c main_v39) r (rowOf t r) o
    (fun k => read0 V c t r k) (read2 V c t r) (fun k => read1 V c t r k) (fun k => read3 V c t k o) (fun k => read4 V c t k o) (read5 V c t o)

/-- An index of the result array is in point t's block iff each coordinate is in the block's range on its axis. -/
theorem mem_blk (t : Fin cfg1.N) (i : S100000x40.Idx) :
    i ∈ ((cfg1.win 6).blk t).view.set ↔ ∀ a : Fin 2, win1_6.index t a * S4000x40.size a ≤ (i a).val ∧ (i a).val < win1_6.index t a * S4000x40.size a + S4000x40.size a := by
  show i ∈ ((View.whole main_v40).slice (win1_6.rect t)).set ↔ _
  rw [View.set_slice_whole, Rect.mem_set_unit]
  exact Iff.rfl

/-- The 25 row blocks tile the array: row p is in the block of point p / 4000. -/
theorem cover (i : S100000x40.Idx) : ∃ t : Fin cfg1.N, (cfg1.win 6).flush t = true ∧ i ∈ ((cfg1.win 6).blk t).view.set := by
  have hi0 : (i 0).val < 100000 := (i 0).isLt
  have hi1 : (i 1).val < 40 := (i 1).isLt
  have hN : grid1.N = 25 := Gen.N_1
  have hlt : (i 0).val / 4000 < grid1.N := by omega
  obtain ⟨-, -, -, -, -, -, -, -, -, -, -, -, e0, e1⟩ := idx_facts (⟨(i 0).val / 4000, hlt⟩ : Fin cfg1.N)
  refine ⟨⟨(i 0).val / 4000, hlt⟩, flush1_6 _, ?_⟩
  rw [mem_blk]
  intro a
  match a with
  | ⟨0, _⟩ =>
    show win1_6.index ⟨(i 0).val / 4000, hlt⟩ (0 : Fin 2) * 4000 ≤ (i 0).val ∧ (i 0).val < win1_6.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win1_6.index ⟨(i 0).val / 4000, hlt⟩ (1 : Fin 2) * 40 ≤ (i 1).val ∧ (i 1).val < win1_6.index ⟨(i 0).val / 4000, hlt⟩ (1 : Fin 2) * 40 + 40
    rw [e1]; omega

/-- THE REGION'S RESULT ARRAY after the run: the output layer of the arrays the region finds. -/
theorem final (c : Dev nD) : (dat1 V c).arrAt 6 cfg1.N = G V c :=
  (dat1 V c).arrAt_eq_of_cover 6 (G V c) (fun t _ => flushed_eq V c t) cover

end Cert.KernelIdeal.Block1

end
-- ==== Proof.RefLayer.lean ====
/-
  The reference's two dense stages as the dense layer of the specification.

  The reference divides the summed neighbour features by the clamped neighbour count, row by row; the specification
  multiplies them by the count's reciprocal. The clamped count is a maximum with one, so it is not zero, and for a
  divisor that is not zero the quotient is the product with the reciprocal on every extended real. The rest is
  reading each stage at an index: the two matrix products as sums over the 64 input features, the transposed
  weights, the bias broadcast along the rows, and the positive part.
-/
import proofs.«169561_j46231027974474_2_alg».proof.Proof.Gen.ReferenceIdeal.Read
import proofs.«169561_j46231027974474_2_alg».proof.Proof.Sage
import Idealize.ShloMosaic.Lib.IdealHost
import Idealize.ShloMosaic.Lib.Pipeline.Value
import Idealize.ShloMosaic.Lib.ValueIdx

noncomputable section

open scoped BigOperators

namespace Cert.ReferenceIdeal.Layer

open Cert.ReferenceIdeal Cert.ReferenceIdeal.Gen Cert.ReferenceIdeal.Read
open Idealize.ShloMosaic Idealize.ShloMosaic.ValueIdx

/-- The reciprocal of the clamped neighbour count, one per node: one divided by the maximum of the count and one. -/
def invCount (E : (⟨S2x1200000, .i32⟩ : BufTy).Contents (Elt Ideal)) : (⟨S100000x1, .f32⟩ : BufTy).Contents (Elt Ideal) :=
  Host.divf (F := Ideal) (broadcastInDim S100000x1 ![] bcast_S_S100000x1 (constant (F := Ideal) S_ .f32 0x3F800000#32))
    (val_main_v19 (F := Ideal) E)

/-- The clamped count is at least one, so it is not zero. -/
theorem count_ne_zero (E : (⟨S2x1200000, .i32⟩ : BufTy).Contents (Elt Ideal)) (i : S100000x1.Idx) :
    val_main_v19 (F := Ideal) E i ≠ 0 := by
  rw [val_main_v19_apply, val_main_v18_apply, val_main_cst_3_apply]
  show max _ (Ideal.ofBits .f32 0x3F800000#32) ≠ 0
  rw [Ideal.ofBits_one_f32]
  exact ne_of_gt (lt_of_lt_of_le zero_lt_one (le_max_right _ _))

/-- The reciprocal at a node. -/
theorem invCount_apply (E : (⟨S2x1200000, .i32⟩ : BufTy).Contents (Elt Ideal)) (p : Fin 100000) :
    invCount E (ix2 p (0 : Fin 1)) = Ideal.div 1 (val_main_v19 (F := Ideal) E (ix2 p (0 : Fin 1))) := by
  unfold invCount
  rw [hostDivf_apply, broadcastInDim_scalar_apply]
  show Ideal.div (Ideal.ofBits .f32 0x3F800000#32) _ = _
  rw [Ideal.ofBits_one_f32]

/-- A [64] bias cast to a [1, 64] row reads, at (0, o), the bias at o. -/
theorem biasRow_apply {α : Type} {d : ℕ} (b : (⟨1, ![d]⟩ : Shape).Idx → α) (h : (⟨1, ![d]⟩ : Shape).ShapeCasts ⟨2, ![1, d]⟩) (o : Fin d) :
    shapeCast ⟨2, ![1, d]⟩ b h (ix2 (0 : Fin 1) o) = b (ix1 o) :=
  shapeCast_apply b h _ _ (by
    rw [Shape.rowMajor_val_two, Shape.rowMajor_val_one]
    show o.val = 0 * d + o.val
    omega)

/-- THE HIDDEN STAGE of the reference is the specification's hidden layer of: the summed neighbour features, the
    reciprocal of the clamped count, the node features, the two transposed weight matrices, the bias as a row. -/
theorem hidden_eq (X : (⟨S100000x64, .f32⟩ : BufTy).Contents (Elt Ideal)) (E : (⟨S2x1200000, .i32⟩ : BufTy).Contents (Elt Ideal))
    (Wl Wr : (⟨S64x64, .f32⟩ : BufTy).Contents (Elt Ideal)) (b : (⟨S64, .f32⟩ : BufTy).Contents (Elt Ideal))
    (hc : S64.ShapeCasts S1x64) :
    val_main_v30 (F := Ideal) X E Wl Wr b
      = Sage.hidden (val_main_v13 (F := Ideal) X E) (invCount E) X (val_main_v22 (F := Ideal) Wl) (val_main_v24 (F := Ideal) Wr)
          (shapeCast S1x64 b hc) := by
  funext i
  obtain ⟨p, o, rfl⟩ : ∃ (p : Fin 100000) (o : Fin 64), i = ix2 p o := ⟨i 0, i 1, eq_ix2 i⟩
  show _ = max (Sage.rowVal _ _ _ _ _ _ p o) Sage.zero32
  rw [val_main_v30_apply, val_main_v29_apply, val_main_v26_apply, val_main_v23_apply, val_main_v25_apply, val_main_v28_apply,
    val_main_v27_apply, val_main_call0_v0_apply, val_main_call0_cst_apply]
  unfold Sage.rowVal Sage.zero32
  have el : ∀ k : Fin 64, lidx_main_v23 (ix2 p o) k = ix2 p k := fun k => funext fun a => Fin.ext (by
    match a with
    | ⟨0, _⟩ => rfl
    | ⟨1, _⟩ => rfl)
  have er : ∀ k : Fin 64, ridx_main_v23 (ix2 p o) k = ix2 k o := fun k => funext fun a => Fin.ext (by
    match a with
    | ⟨0, _⟩ => rfl
    | ⟨1, _⟩ => rfl)
  have el' : ∀ k : Fin 64, lidx_main_v25 (ix2 p o) k = ix2 p k := fun k => funext fun a => Fin.ext (by
    match a with
    | ⟨0, _⟩ => rfl
    | ⟨1, _⟩ => rfl)
  have er' : ∀ k : Fin 64, ridx_main_v25 (ix2 p o) k = ix2 k o := fun k => funext fun a => Fin.ext (by
    match a with
    | ⟨0, _⟩ => rfl
    | ⟨1, _⟩ => rfl)
  have eb : idx_main_v27 (idx_main_v28 (ix2 p o)) = ix1 o := funext fun a => Fin.ext (by
    match a with
    | ⟨0, _⟩ => rfl)
  have ec : ∀ k : Fin 64, idx_main_v20 (ix2 p k) = ix2 p (0 : Fin 1) := fun k => funext fun a => Fin.ext (by
    match a with
    | ⟨0, _⟩ => rfl
    | ⟨1, _⟩ => rfl)
  have hd : ∀ k : Fin 64, val_main_v21 (F := Ideal) X E (ix2 p k) = val_main_v13 (F := Ideal) X E (ix2 p k) * invCount E (ix2 p (0 : Fin 1)) := fun k => by
    rw [val_main_v21_apply, val_main_v20_apply, ec k, invCount_apply]
    show Ideal.div _ _ = _
    exact (Ideal.mul_one_div (count_ne_zero E _)).symm
  simp only [el, er, el', er', eb, hd]
  rw [biasRow_apply b hc o]
  rfl

/-- The second layer's clamped count is the first layer's: the same operations of the same edge array. -/
theorem count_again (E : (⟨S2x1200000, .i32⟩ : BufTy).Contents (Elt Ideal)) :
    val_main_v46 (F := Ideal) E = val_main_v19 (F := Ideal) E := rfl

/-- THE OUTPUT STAGE of the reference is the specification's output layer of: the summed neighbour hidden features,
    the reciprocal of the clamped count, the hidden features, the two transposed weight matrices, the bias as a row. -/
theorem output_eq (X : (⟨S100000x64, .f32⟩ : BufTy).Contents (Elt Ideal)) (E : (⟨S2x1200000, .i32⟩ : BufTy).Contents (Elt Ideal))
    (Wl1 Wr1 : (⟨S64x64, .f32⟩ : BufTy).Contents (Elt Ideal)) (b1 : (⟨S64, .f32⟩ : BufTy).Contents (Elt Ideal))
    (Wl Wr : (⟨S40x64, .f32⟩ : BufTy).Contents (Elt Ideal)) (b : (⟨S40, .f32⟩ : BufTy).Contents (Elt Ideal))
    (hc : S40.ShapeCasts S1x40) :
    val_main_v56 (F := Ideal) X E Wl1 Wr1 b1 Wl Wr b
      = Sage.output (val_main_v40 (F := Ideal) X E Wl1 Wr1 b1) (invCount E) (val_main_v30 (F := Ideal) X E Wl1 Wr1 b1)
          (val_main_v49 (F := Ideal) Wl) (val_main_v51 (F := Ideal) Wr) (shapeCast S1x40 b hc) := by
  funext i
  obtain ⟨p, o, rfl⟩ : ∃ (p : Fin 100000) (o : Fin 40), i = ix2 p o := ⟨i 0, i 1, eq_ix2 i⟩
  show _ = Sage.rowVal _ _ _ _ _ _ p o
  rw [val_main_v56_apply, val_main_v53_apply, val_main_v50_apply, val_main_v52_apply, val_main_v55_apply, val_main_v54_apply]
  unfold Sage.rowVal
  have el : ∀ k : Fin 64, lidx_main_v50 (ix2 p o) k = ix2 p k := fun k => funext fun a => Fin.ext (by
    match a with
    | ⟨0, _⟩ => rfl
    | ⟨1, _⟩ => rfl)
  have er : ∀ k : Fin 64, ridx_main_v50 (ix2 p o) k = ix2 k o := fun k => funext fun a => Fin.ext (by
    match a with
    | ⟨0, _⟩ => rfl
    | ⟨1, _⟩ => rfl)
  have el' : ∀ k : Fin 64, lidx_main_v52 (ix2 p o) k = ix2 p k := fun k => funext fun a => Fin.ext (by
    match a with
    | ⟨0, _⟩ => rfl
    | ⟨1, _⟩ => rfl)
  have er' : ∀ k : Fin 64, ridx_main_v52 (ix2 p o) k = ix2 k o := fun k => funext fun a => Fin.ext (by
    match a with
    | ⟨0, _⟩ => rfl
    | ⟨1, _⟩ => rfl)
  have eb : idx_main_v54 (idx_main_v55 (ix2 p o)) = ix1 o := funext fun a => Fin.ext (by
    match a with
    | ⟨0, _⟩ => rfl)
  have ec : ∀ k : Fin 64, idx_main_v47 (ix2 p k) = ix2 p (0 : Fin 1) := fun k => funext fun a => Fin.ext (by
    match a with
    | ⟨0, _⟩ => rfl
    | ⟨1, _⟩ => rfl)
  have hd : ∀ k : Fin 64, val_main_v48 (F := Ideal) X E Wl1 Wr1 b1 (ix2 p k) = val_main_v40 (F := Ideal) X E Wl1 Wr1 b1 (ix2 p k) * invCount E (ix2 p (0 : Fin 1)) := fun k => by
    rw [val_main_v48_apply, val_main_v47_apply, ec k, invCount_apply, count_again]
    show Ideal.div _ _ = _
    exact (Ideal.mul_one_div (count_again E ▸ count_ne_zero E _)).symm
  simp only [el, er, el', er', eb, hd]
  rw [biasRow_apply b hc o]
  rfl

end Cert.ReferenceIdeal.Layer

end
-- ==== Proof.HostValue.lean ====
/-
  What the idealized kernel's host operations hand to its two regions, and the whole program's result.

  Before the first region the host gathers the source nodes' features along the edges and sums them into the
  destination nodes, counts each node's incoming edges, clamps the count at one and takes its reciprocal, and
  transposes the weights: these are, operation for operation, the reference's own stages of the same arguments. So
  the first region's result is the reference's hidden stage, by the dense layer's two readings. Between the regions
  the host repeats the gather and the sum on that result — stored in a narrower float format, which is the identity
  on extended reals — and the second region's result is the reference's output stage.
-/
import proofs.«169561_j46231027974474_2_alg».proof.Proof.Gen.KernelIdeal.Frame
import proofs.«169561_j46231027974474_2_alg».proof.Proof.Gen.ReferenceIdeal.Read
import proofs.«169561_j46231027974474_2_alg».proof.Proof.Block0
import proofs.«169561_j46231027974474_2_alg».proof.Proof.Block1
import proofs.«169561_j46231027974474_2_alg».proof.Proof.RefLayer
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The argument arrays of the launch memory, typed as the reference's stages take them. -/
abbrev aX (c : Dev nD) : S100000x64.Idx → EReal := m ((c.tc : Thread nD τ).loc main_arg0)
abbrev aE (c : Dev nD) : S2x1200000.Idx → BitVec 32 := m ((c.tc : Thread nD τ).loc main_arg1)
abbrev aW1l (c : Dev nD) : S64x64.Idx → EReal := m ((c.tc : Thread nD τ).loc main_arg2)
abbrev aW1r (c : Dev nD) : S64x64.Idx → EReal := m ((c.tc : Thread nD τ).loc main_arg3)
abbrev ab1 (c : Dev nD) : S64.Idx → EReal := m ((c.tc : Thread nD τ).loc main_arg4)
abbrev aW2l (c : Dev nD) : S40x64.Idx → EReal := m ((c.tc : Thread nD τ).loc main_arg5)
abbrev aW2r (c : Dev nD) : S40x64.Idx → EReal := m ((c.tc : Thread nD τ).loc main_arg6)
abbrev ab2 (c : Dev nD) : S40.Idx → EReal := m ((c.tc : Thread nD τ).loc main_arg7)

/-! ## What the first region is handed -/

/-- The summed neighbour features are the reference's. -/
theorem entry0_agg (c : Dev nD) :
    (V1 m ρ c main_v21 : S100000x64.Idx → EReal) = Cert.ReferenceIdeal.Read.val_main_v13 (F := Ideal) (aX m c) (aE m c) := by
  show StableHlo.after hostOps0 (W0 m ρ c) (Proc.devRef .tc main_v21) = _
  after_results_simp
  rfl

/-- The node features are the argument. -/
theorem entry0_x (c : Dev nD) : (V1 m ρ c main_arg0 : S100000x64.Idx → EReal) = aX m c := by
  show StableHlo.after hostOps0 (W0 m ρ c) (Proc.devRef .tc main_arg0) = _
  after_results_simp

/-- The scale column is the reciprocal of the clamped neighbour count. -/
theorem entry0_inv (c : Dev nD) : (V1 m ρ c main_v11 : S100000x1.Idx → EReal) = Cert.ReferenceIdeal.Layer.invCount (aE m c) := by
  show StableHlo.after hostOps0 (W0 m ρ c) (Proc.devRef .tc main_v11) = _
  after_results_simp
  rfl

/-- The two weight matrices, transposed. -/
theorem entry0_wl (c : Dev nD) : (V1 m ρ c main_v22 : S64x64.Idx → EReal) = Cert.ReferenceIdeal.Read.val_main_v22 (F := Ideal) (aW1l m c) := by
  show StableHlo.after hostOps0 (W0 m ρ c) (Proc.devRef .tc main_v22) = _
  after_results_simp
  rfl

theorem entry0_wr (c : Dev nD) : (V1 m ρ c main_v23 : S64x64.Idx → EReal) = Cert.ReferenceIdeal.Read.val_main_v24 (F := Ideal) (aW1r m c) := by
  show StableHlo.after hostOps0 (W0 m ρ c) (Proc.devRef .tc main_v23) = _
  after_results_simp
  rfl

/-- The bias as a row. -/
theorem entry0_b (c : Dev nD) : (V1 m ρ c main_v24 : S1x64.Idx → EReal) = shapeCast S1x64 (ab1 m c) shapeCasts_S64_S1x64 := by
  show StableHlo.after hostOps0 (W0 m ρ c) (Proc.devRef .tc main_v24) = _
  after_results_simp
  rfl

/-! ## The first region's result -/

/-- THE HIDDEN FEATURES the first region leaves are the reference's hidden stage. -/
theorem hidden_value (c : Dev nD) :
    (W2 m ρ c (Proc.devRef .tc main_v25) : S100000x64.Idx → EReal)
      = Cert.ReferenceIdeal.Read.val_main_v30 (F := Ideal) (aX m c) (aE m c) (aW1l m c) (aW1r m c) (ab1 m c) := by
  refine (W2_arr m ρ c 6).trans ((Block0.final (V1 m ρ) c).trans ?_)
  show Sage.hidden (V1 m ρ c main_v21) (V1 m ρ c main_v11) (V1 m ρ c main_arg0) (V1 m ρ c main_v22) (V1 m ρ c main_v23) (V1 m ρ c main_v24) = _
  rw [entry0_agg, entry0_inv, entry0_x, entry0_wl, entry0_wr, entry0_b]
  exact (Cert.ReferenceIdeal.Layer.hidden_eq (aX m c) (aE m c) (aW1l m c) (aW1r m c) (ab1 m c) shapeCasts_S64_S1x64).symm

/-! ## What the second region is handed -/

/-- The two index columns computed before the first region are still there after it. -/
theorem kept_src (c : Dev nD) : (W2 m ρ c (Proc.devRef .tc main_v1) : S1200000.Idx → BitVec 32) = Cert.ReferenceIdeal.Read.val_main_v1 (F := Ideal) (aE m c) := by
  refine (W2_of_ne m ρ c main_v1 (by decide)).trans ?_
  show StableHlo.after hostOps0 (W0 m ρ c) (Proc.devRef .tc main_v1) = _
  after_results_simp
  rfl

theorem kept_dst (c : Dev nD) : (W2 m ρ c (Proc.devRef .tc main_v3) : S1200000.Idx → BitVec 32) = Cert.ReferenceIdeal.Read.val_main_v3 (F := Ideal) (aE m c) := by
  refine (W2_of_ne m ρ c main_v3 (by decide)).trans ?_
  show StableHlo.after hostOps0 (W0 m ρ c) (Proc.devRef .tc main_v3) = _
  after_results_simp
  rfl

/-- So is the scale column: the first region only reads it. -/
theorem kept_inv (c : Dev nD) : (W2 m ρ c (Proc.devRef .tc main_v11) : S100000x1.Idx → EReal) = Cert.ReferenceIdeal.Layer.invCount (aE m c) :=
  ((W2_arr m ρ c 2).trans (((dat0 (V1 m ρ) c).arrAt_in 2 rfl _).trans (A_eq0 (V1 m ρ) c 2))).trans (entry0_inv m ρ c)

/-- The second layer's arguments are as launched. -/
theorem kept_w2l (c : Dev nD) : (W2 m ρ c (Proc.devRef .tc main_arg5) : S40x64.Idx → EReal) = aW2l m c := by
  refine (W2_of_ne m ρ c main_arg5 (by decide)).trans ?_
  show StableHlo.after hostOps0 (W0 m ρ c) (Proc.devRef .tc main_arg5) = _
  after_results_simp

theorem kept_w2r (c : Dev nD) : (W2 m ρ c (Proc.devRef .tc main_arg6) : S40x64.Idx → EReal) = aW2r m c := by
  refine (W2_of_ne m ρ c main_arg6 (by decide)).trans ?_
  show StableHlo.after hostOps0 (W0 m ρ c) (Proc.devRef .tc main_arg6) = _
  after_results_simp

theorem kept_b2 (c : Dev nD) : (W2 m ρ c (Proc.devRef .tc main_arg7) : S40.Idx → EReal) = ab2 m c := by
  refine (W2_of_ne m ρ c main_arg7 (by decide)).trans ?_
  show StableHlo.after hostOps0 (W0 m ρ c) (Proc.devRef .tc main_arg7) = _
  after_results_simp

/-- The summed neighbour hidden features are the reference's: the hidden features gathered along the edges (read
    back from their narrower format, the identity) and summed into the destination nodes. -/
theorem entry1_agg (c : Dev nD) :
    (V3 m ρ c main_v36 : S100000x64.Idx → EReal)
      = Cert.ReferenceIdeal.Read.val_main_v40 (F := Ideal) (aX m c) (aE m c) (aW1l m c) (aW1r m c) (ab1 m c) := by
  show StableHlo.after hostOps1 (W2 m ρ c) (Proc.devRef .tc main_v36) = _
  after_results_simp
  rw [hidden_value, kept_src, kept_dst]
  rfl

theorem entry1_h (c : Dev nD) :
    (V3 m ρ c main_v25 : S100000x64.Idx → EReal)
      = Cert.ReferenceIdeal.Read.val_main_v30 (F := Ideal) (aX m c) (aE m c) (aW1l m c) (aW1r m c) (ab1 m c) := by
  show StableHlo.after hostOps1 (W2 m ρ c) (Proc.devRef .tc main_v25) = _
  after_results_simp
  exact hidden_value m ρ c

theorem entry1_inv (c : Dev nD) : (V3 m ρ c main_v11 : S100000x1.Idx → EReal) = Cert.ReferenceIdeal.Layer.invCount (aE m c) := by
  show StableHlo.after hostOps1 (W2 m ρ c) (Proc.devRef .tc main_v11) = _
  after_results_simp
  exact kept_inv m ρ c

theorem entry1_wl (c : Dev nD) : (V3 m ρ c main_v37 : S64x40.Idx → EReal) = Cert.ReferenceIdeal.Read.val_main_v49 (F := Ideal) (aW2l m c) := by
  show StableHlo.after hostOps1 (W2 m ρ c) (Proc.devRef .tc main_v37) = _
  after_results_simp
  rw [kept_w2l]
  rfl

theorem entry1_wr (c : Dev nD) : (V3 m ρ c main_v38 : S64x40.Idx → EReal) = Cert.ReferenceIdeal.Read.val_main_v51 (F := Ideal) (aW2r m c) := by
  show StableHlo.after hostOps1 (W2 m ρ c) (Proc.devRef .tc main_v38) = _
  after_results_simp
  rw [kept_w2r]
  rfl

theorem entry1_b (c : Dev nD) : (V3 m ρ c main_v39 : S1x40.Idx → EReal) = shapeCast S1x40 (ab2 m c) shapeCasts_S40_S1x40 := by
  show StableHlo.after hostOps1 (W2 m ρ c) (Proc.devRef .tc main_v39) = _
  after_results_simp
  rw [kept_b2]
  rfl

/-! ## The program's result -/

/-- THE RESULT the second region leaves is the reference's output stage of the launch memory's arguments. -/
theorem result_value (c : Dev nD) :
    (W4 m ρ c (Proc.devRef .tc main_v40) : S100000x40.Idx → EReal)
      = Cert.ReferenceIdeal.Read.val_main_v56 (F := Ideal) (aX m c) (aE m c) (aW1l m c) (aW1r m c) (ab1 m c) (aW2l m c) (aW2r m c) (ab2 m c) := by
  refine (W4_arr m ρ c 6).trans ((Block1.final (V3 m ρ) c).trans ?_)
  show Sage.output (V3 m ρ c main_v36) (V3 m ρ c main_v11) (V3 m ρ c main_v25) (V3 m ρ c main_v37) (V3 m ρ c main_v38) (V3 m ρ c main_v39) = _
  rw [entry1_agg, entry1_inv, entry1_h, entry1_wl, entry1_wr, entry1_b]
  exact (Cert.ReferenceIdeal.Layer.output_eq (aX m c) (aE m c) (aW1l m c) (aW1r m c) (ab1 m c) (aW2l m c) (aW2r m c) (ab2 m c) shapeCasts_S40_S1x40).symm

end Cert.KernelIdeal.HostValue

end
-- ==== Proof.lean ====
/-
  Two GraphSAGE layers on a graph of 100000 nodes and 1200000 edges, as a kernel of two fused dense regions against
  its jnp reference, equal over the extended reals.

  Each layer is: gather the source nodes' features along the edges, sum them into the destination nodes, scale each
  node's sum by the reciprocal of its clamped incoming-edge count, and apply  agg · Wlᵀ + x · Wrᵀ + b  (the first
  layer followed by the positive part). The kernel keeps the gather, the sum and the count on the host and fuses the
  scaling and the dense part into a region over 25 row blocks; the reference divides by the clamped count where the
  kernel multiplies by its reciprocal. The clamped count is at least one, so the two agree on every extended real,
  and no finiteness of the inputs is used. The kernel stores the hidden features in a narrower float format, which is
  the identity on extended reals.

  The frames of the two kernel programs are the generated ones; the reference's frame is its generated run with the
  result dropped; the idealization rewrote nothing, so there is nothing to preserve; and the value claim puts both
  runs' results at the reference's output stage of the shared arguments.
-/
import proofs.«169561_j46231027974474_2_alg».proof.Defs
import proofs.«169561_j46231027974474_2_alg».proof.Proof.Gen.Kernel
import proofs.«169561_j46231027974474_2_alg».proof.Proof.Gen.Kernel.Skeleton
import proofs.«169561_j46231027974474_2_alg».proof.Proof.Gen.Kernel.Launch
import proofs.«169561_j46231027974474_2_alg».proof.Proof.Gen.Kernel.Points
import proofs.«169561_j46231027974474_2_alg».proof.Proof.Gen.Kernel.Frame
import proofs.«169561_j46231027974474_2_alg».proof.Proof.Gen.KernelIdeal
import proofs.«169561_j46231027974474_2_alg».proof.Proof.Gen.KernelIdeal.Skeleton
import proofs.«169561_j46231027974474_2_alg».proof.Proof.Gen.KernelIdeal.Launch
import proofs.«169561_j46231027974474_2_alg».proof.Proof.Gen.KernelIdeal.Points
import proofs.«169561_j46231027974474_2_alg».proof.Proof.Gen.KernelIdeal.Frame
import proofs.«169561_j46231027974474_2_alg».proof.Proof.Gen.ReferenceIdeal
import proofs.«169561_j46231027974474_2_alg».proof.Proof.Gen.ReferenceIdeal.Run
import proofs.«169561_j46231027974474_2_alg».proof.Proof.Gen.ReferenceIdeal.Read
import proofs.«169561_j46231027974474_2_alg».proof.Proof.Gen.Pre_finite_inputs
import proofs.«169561_j46231027974474_2_alg».proof.Proof.KernelRun
import proofs.«169561_j46231027974474_2_alg».proof.Proof.HostValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's run with its result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with their result at the reference's output stage of the arguments, which the two memories share. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v56 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.HostValue.result_value m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v56_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
